-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.sign_bit.Statement Cert.KernelIdeal.S1024x256 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096x1 : Shape := ⟨2, ![4096, 1]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x1 : S_.BroadcastsInDim S4096x1 (![] : Fin 0 → Fin S4096x1.rank)
  reducesTo_S4096x1_S_d0_1 : S4096x1.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : FVec F S4096x4096 .f32) (main_arg2 : FVec F S4096x1 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S4096x1 : Shape := ⟨2, ![4096, 1]⟩
abbrev S4096 : Shape := ⟨1, ![4096]⟩
abbrev S1x4096 : Shape := ⟨2, ![1, 4096]⟩
abbrev S2048x256 : Shape := ⟨2, ![2048, 256]⟩
abbrev S1024x256 : Shape := ⟨2, ![1024, 256]⟩
abbrev S1024x1 : Shape := ⟨2, ![1024, 1]⟩
abbrev S1x1024 : Shape := ⟨2, ![1, 1024]⟩
abbrev S2048x1024 : Shape := ⟨2, ![2048, 1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x1, .f32⟩
  | .hbm, ⟨3, _⟩ => ⟨S4096, .f32⟩
  | .hbm, ⟨4, _⟩ => ⟨S1x4096, .f32⟩
  | .hbm, ⟨5, _⟩ => ⟨S8192x4096, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S1024x256, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S2048x1024, .f32⟩
  | .local _ .vmem, ⟨9, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨3, ![4, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4096_S1x4096 : S4096.ShapeCasts S1x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  broadcasts_S1024x1_S1024x256 : S1024x1.Broadcasts S1024x256
  inb_S2048x256_S2048x256_0_0 : ∀ a, (![0, 0] : Fin 2 → Nat) a + S2048x256.size a ≤ S2048x256.size a
  h_S2048x256 : 0 < S2048x256.numel
  shapeCasts_S2048x1024_S2048x1024 : S2048x1024.ShapeCasts S2048x1024
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x4096.size a
  hwx0_0 : ∀ i : grid0.Coords, EltTy.bits .f32 = 32 ∨ (Rect.block (s := S8192x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x4096.size a
  hwx0_1 : ∀ i : grid0.Coords, EltTy.bits .f32 = 32 ∨ (Rect.block (s := S4096x4096) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S8192x4096.size a
  hwx0_4 : ∀ i : grid0.Coords, EltTy.bits .f32 = 32 ∨ (Rect.block (s := S8192x4096) S2048x1024.size (cc0_transform_4 i) (hinb0_4 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096x1 : Shape := ⟨2, ![4096, 1]⟩
abbrev S4096 : Shape := ⟨1, ![4096]⟩
abbrev S1x4096 : Shape := ⟨2, ![1, 4096]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x1, .f32⟩
  | .hbm, ⟨3, _⟩ => ⟨S4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S8192x4096, .f32⟩
  | .hbm, ⟨10, _⟩ => ⟨S1x4096, .f32⟩
  | .hbm, ⟨11, _⟩ => ⟨S8192x4096, .f32⟩
  | .hbm, ⟨12, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.TileTerm.lean ====
/-
  One grid point's arithmetic, read at a single entry of the 2048-by-1024 output tile, over the extended reals.

  The seed of a tile is the bias row repeated down its rows: entry (p, q) is the bias at column q.
  A step adds to the tile one partial product over 256 contraction indices: entry (p, q) gains
      sum over l < 256 of  x[p, l] * (sign (w[q, l]) * alpha[q, 0]),
  where w is the 1024-by-256 weight tile, alpha the column of per-row scales and x the 2048-by-256 input tile.
  The sign is spelt in the program as "where |w| > 0 take -1 or 1 by the comparison w < 0, elsewhere w itself";
  on every extended real that is the sign function, zero included. The narrowing format changes are the identity here.
-/
import proofs.«109419_j1056561955255_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.TileTerm

open Cert.KernelIdeal Cert.KernelIdeal.Gen Idealize.ShloMosaic Idealize.ShloMosaic.ValueIdx

/-- The matrix product's dimension numbers: both operands are contracted along their second axis. -/
abbrev dd := dot_S2048x256_S1024x256_S2048x1024_1_1_0_0_n_n

theorem lhs_row (i : S2048x1024.Idx) (k : dd.contr.Idx) : (dd.lhsIdx i k 0).val = (i 0).val := by
  unfold DotDims.lhsIdx
  rw [dif_neg (show ¬(0 : Fin S2048x256.rank) ∈ dd.lhsBatch by decide),
    dif_pos (show (0 : Fin S2048x256.rank) ∈ dd.lhsNonContracting by decide)]
  rfl

theorem lhs_col (i : S2048x1024.Idx) (k : dd.contr.Idx) : (dd.lhsIdx i k 1).val = (k ⟨0, by decide⟩).val :=
  dd.lhsIdx_val_of_single rfl i k

theorem rhs_row (i : S2048x1024.Idx) (k : dd.contr.Idx) : (dd.rhsIdx i k 0).val = (i 1).val := by
  unfold DotDims.rhsIdx
  rw [dif_neg (show ¬(0 : Fin S1024x256.rank) ∈ dd.rhsBatch by decide),
    dif_pos (show (0 : Fin S1024x256.rank) ∈ dd.rhsNonContracting by decide)]
  rfl

theorem rhs_col (i : S2048x1024.Idx) (k : dd.contr.Idx) : (dd.rhsIdx i k 1).val = (k ⟨0, by decide⟩).val :=
  dd.rhsIdx_val_of_single rfl i k

/-- The seed tile at entry (p, q) is the bias row's entry at column q. -/
theorem seed_apply (b : FVec Ideal S1x1024 .f32) (p : Fin 2048) (q : Fin 1024) :
    k0_pay1 (F := Ideal) b (ix2 p q) = b (ix2 0 q) := by
  unfold k0_pay1
  simp only [shapeCast_self]
  exact broadcastTo_apply _ broadcasts_S1x1024_S2048x1024 (ix2 p q) (ix2 0 q) (fun a => match a with
    | ⟨0, _⟩ => by show (0 : ℕ) = if (1 : ℕ) = 1 then 0 else p.val; rw [if_pos rfl]
    | ⟨1, _⟩ => by show q.val = if (1024 : ℕ) = 1 then 0 else q.val; rw [if_neg (by decide)])

/-- The signed, scaled weight tile at entry (q, l): the sign of the weight times its row's scale. -/
theorem signed_weight_apply (w : FVec Ideal S1024x256 .f32) (al : FVec Ideal S1024x1 .f32) (q : Fin 1024) (l : Fin 256) :
    (mulf (truncf .bf16 (select (cmpf .ogt (absf w) (broadcast S1024x256 (Scalar.ofBits .f32 0x00000000#32)))
        (select (cmpf .olt w (constant S1024x256 .f32 0x00000000#32)) (constant S1024x256 .f32 0xBF800000#32)
          (constant S1024x256 .f32 0x3F800000#32)) w) bitsLt_bf16_f32)
      (broadcastTo S1024x256 (truncf .bf16 al bitsLt_bf16_f32) broadcasts_S1024x1_S1024x256) : FVec Ideal S1024x256 .bf16) (ix2 q l)
      = Ideal.sign (w (ix2 q l)) * al (ix2 q 0) := by
  rw [mulf_apply]
  have hb : (broadcastTo S1024x256 (truncf .bf16 al bitsLt_bf16_f32 : FVec Ideal S1024x1 .bf16) broadcasts_S1024x1_S1024x256) (ix2 q l)
      = al (ix2 q 0) :=
    broadcastTo_apply _ broadcasts_S1024x1_S1024x256 (ix2 q l) (ix2 q 0) (fun a => match a with
      | ⟨0, _⟩ => by show q.val = if (1024 : ℕ) = 1 then 0 else q.val; rw [if_neg (by decide)]
      | ⟨1, _⟩ => by show (0 : ℕ) = if (1 : ℕ) = 1 then 0 else l.val; rw [if_pos rfl])
  rw [hb]
  exact congrArg (· * al (ix2 q 0)) (Ideal.jnp_sign_eq_sign_f32 (w (ix2 q l)))

/-- A step at entry (p, q): what was there, plus the partial product over the tile's 256 contraction indices. -/
theorem step_apply (w : FVec Ideal S1024x256 .f32) (al : FVec Ideal S1024x1 .f32) (x : FVec Ideal S2048x256 .f32)
    (acc : FVec Ideal S2048x1024 .f32) (p : Fin 2048) (q : Fin 1024) :
    k0_pay2 (F := Ideal) w al x acc (ix2 p q)
      = acc (ix2 p q) + ∑ l : Fin 256, x (ix2 p l) * (Ideal.sign (w (ix2 q l)) * al (ix2 q 0)) := by
  unfold k0_pay2
  simp only [shapeCast_self]
  rw [addf_apply]
  refine (congrArg (acc (ix2 p q) + ·) (Ideal.matmul_constant_zero_apply dd none _ _ (ix2 p q))).trans ?_
  rw [← Equiv.sum_comp (contrEquiv1 dd 256 rfl rfl).symm]
  refine congrArg (acc (ix2 p q) + ·) (Finset.sum_congr rfl fun l _ => ?_)
  have hk := contrEquiv1_symm_val dd 256 rfl rfl l
  have el : dd.lhsIdx (ix2 p q) ((contrEquiv1 dd 256 rfl rfl).symm l) = ix2 p l := funext fun a => Fin.ext (by
    match a with
    | ⟨0, _⟩ => exact lhs_row _ _
    | ⟨1, _⟩ => exact (lhs_col _ _).trans hk)
  have er : dd.rhsIdx (ix2 p q) ((contrEquiv1 dd 256 rfl rfl).symm l) = ix2 q l := funext fun a => Fin.ext (by
    match a with
    | ⟨0, _⟩ => exact rhs_row _ _
    | ⟨1, _⟩ => exact (rhs_col _ _).trans hk)
  rw [el, er, truncf_apply]
  exact congrArg (x (ix2 p l) * ·) (signed_weight_apply w al q l)

end Cert.KernelIdeal.TileTerm

end
-- ==== Proof.Tiles.lean ====
/-
  Each input tile of a grid point, read at an entry, is an entry of the argument array its window stages.

  The 256 grid points are numbered t = 64*i + 16*j + k with i < 4 (row tiles of 2048), j < 4 (column tiles of 1024) and
  k < 16 (contraction tiles of 256). At point t
    the input tile is rows 2048*i .. and columns 256*k .. of x,
    the weight tile is rows 1024*j .. and columns 256*k .. of the weights,
    the scale tile is rows 1024*j .. of the one-column scale array,
    the bias tile is columns 1024*j .. of the bias, which reaches the region as a one-row array with the same entries.
  Here i = t / 64, j = t / 16 % 4 and k = t % 16; these relations between the point's number and each window's tile
  indices are decided once over the whole grid.
-/
import proofs.«109419_j1056561955255_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Tiles

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The tile indices of the four input windows at point t, as functions of t's number. -/
theorem tile_index : ∀ t : Fin cfg0.N,
    win0_0.index t (0 : Fin 2) = t.val / 64 ∧ win0_0.index t (1 : Fin 2) = t.val % 16
    ∧ win0_1.index t (0 : Fin 2) = t.val / 16 % 4 ∧ win0_1.index t (1 : Fin 2) = t.val % 16
    ∧ win0_2.index t (0 : Fin 2) = t.val / 16 % 4 ∧ win0_2.index t (1 : Fin 2) = 0
    ∧ win0_3.index t (0 : Fin 2) = 0 ∧ win0_3.index t (1 : Fin 2) = t.val / 16 % 4 :=
  (by decide +kernel : ∀ t : Fin grid0.N, _)

/-- Entry (p, l) of the input tile at point t is x at row 2048*(t/64) + p, column 256*(t%16) + l. -/
theorem x_tile (c : Dev nD) (t : Fin cfg0.N) (p : Fin 2048) (l : Fin 256) (j : S8192x4096.Idx)
    (h0 : (j 0).val = 2048 * (t.val / 64) + p.val) (h1 : (j 1).val = 256 * (t.val % 16) + l.val) :
    (iblk m c 0 t : Vec F S2048x256 .f32) (ix2 p l) = m ((c : Thread nD τ).loc main_arg0) j := by
  obtain ⟨e0, e1, -⟩ := tile_index t
  unfold iblk
  rw [View.read_apply]
  show V m c main_arg0 _ = _
  rw [V_main_arg0]
  refine congrArg _ (funext fun a => Fin.ext ?_)
  match a with
  | ⟨0, _⟩ => show win0_0.index t (0 : Fin 2) * 2048 + 1 * p.val = (j 0).val; rw [e0, h0]; omega
  | ⟨1, _⟩ => show win0_0.index t (1 : Fin 2) * 256 + 1 * l.val = (j 1).val; rw [e1, h1]; omega

/-- Entry (q, l) of the weight tile at point t is the weight at row 1024*(t/16%4) + q, column 256*(t%16) + l. -/
theorem w_tile (c : Dev nD) (t : Fin cfg0.N) (q : Fin 1024) (l : Fin 256) (j : S4096x4096.Idx)
    (h0 : (j 0).val = 1024 * (t.val / 16 % 4) + q.val) (h1 : (j 1).val = 256 * (t.val % 16) + l.val) :
    (iblk m c 1 t : Vec F S1024x256 .f32) (ix2 q l) = m ((c : Thread nD τ).loc main_arg1) j := by
  obtain ⟨-, -, e0, e1, -⟩ := tile_index t
  unfold iblk
  rw [View.read_apply]
  show V m c main_arg1 _ = _
  rw [V_main_arg1]
  refine congrArg _ (funext fun a => Fin.ext ?_)
  match a with
  | ⟨0, _⟩ => show win0_1.index t (0 : Fin 2) * 1024 + 1 * q.val = (j 0).val; rw [e0, h0]; omega
  | ⟨1, _⟩ => show win0_1.index t (1 : Fin 2) * 256 + 1 * l.val = (j 1).val; rw [e1, h1]; omega

/-- Entry (q, 0) of the scale tile at point t is the scale of row 1024*(t/16%4) + q. -/
theorem scale_tile (c : Dev nD) (t : Fin cfg0.N) (q : Fin 1024) (j : S4096x1.Idx)
    (h0 : (j 0).val = 1024 * (t.val / 16 % 4) + q.val) :
    (iblk m c 2 t : Vec F S1024x1 .f32) (ix2 q 0) = m ((c : Thread nD τ).loc main_arg2) j := by
  obtain ⟨-, -, -, -, e0, e1, -⟩ := tile_index t
  unfold iblk
  rw [View.read_apply]
  show V m c main_arg2 _ = _
  rw [V_main_arg2]
  refine congrArg _ (funext fun a => Fin.ext ?_)
  have hj1 : (j 1).val = 0 := by have := idx2_lt1 j; omega
  match a with
  | ⟨0, _⟩ => show win0_2.index t (0 : Fin 2) * 1024 + 1 * q.val = (j 0).val; rw [e0, h0]; omega
  | ⟨1, _⟩ => show win0_2.index t (1 : Fin 2) * 1 + 1 * 0 = (j 1).val; rw [e1, hj1]

/-- The one-row array the region finds for the bias holds the bias's entries in the same order. -/
theorem bias_row_eq (c : Dev nD) :
    (V m c main_v0 : S1x4096.Idx → Elt F .f32)
      = shapeCast S1x4096 (m ((c : Thread nD τ).loc main_arg3)) shapeCasts_S4096_S1x4096 := by
  dsimp only [Gen.V, Gen.hostOps0]
  after_results
  rfl

/-- Entry (0, q) of the bias tile at point t is the bias at index 1024*(t/16%4) + q. -/
theorem bias_tile (c : Dev nD) (t : Fin cfg0.N) (q : Fin 1024) (k : S4096.Idx)
    (hk : (k 0).val = 1024 * (t.val / 16 % 4) + q.val) :
    (iblk m c 3 t : Vec F S1x1024 .f32) (ix2 0 q) = m ((c : Thread nD τ).loc main_arg3) k := by
  obtain ⟨-, -, -, -, -, -, e0, e1⟩ := tile_index t
  unfold iblk
  rw [View.read_apply]
  show V m c main_v0 _ = _
  rw [bias_row_eq]
  refine shapeCast_apply _ _ _ k ?_
  rw [Shape.rowMajor_val_one, Shape.rowMajor_val_two]
  show (k 0).val = (win0_3.index t (0 : Fin 2) * 1 + 1 * 0) * 4096 + (win0_3.index t (1 : Fin 2) * 1024 + 1 * q.val)
  rw [e0, e1, hk]; omega

end Cert.KernelIdeal.Tiles

end
-- ==== Proof.LibBlockSum.lean ====
/-
  A general lemma on sums: a sum over the a·b rows of a matrix may be taken block by block, a blocks of b consecutive rows.
-/
import Mathlib.Algebra.BigOperators.Fin
import Mathlib.Logic.Equiv.Fin.Basic

namespace Cert.LibBlockSum

open scoped BigOperators

/-- Row j of block i of an a-by-b blocking is a row of the whole. -/
theorem lt_blocks {a b i j : ℕ} (hi : i < a) (hj : j < b) : b * i + j < a * b :=
  calc b * i + j < b * i + b := by omega
    _ = b * (i + 1) := (Nat.mul_succ b i).symm
    _ ≤ b * a := Nat.mul_le_mul_left b hi
    _ = a * b := Nat.mul_comm b a

/-- The sum over all a·b rows is the sum over the a blocks of the sums over each block's b rows. -/
theorem sum_blocks {M : Type*} [AddCommMonoid M] (a b : ℕ) (g : Fin (a * b) → M) :
    ∑ i : Fin a, ∑ j : Fin b, g ⟨b * i.val + j.val, lt_blocks i.isLt j.isLt⟩ = ∑ r : Fin (a * b), g r := by
  rw [← Equiv.sum_comp finProdFinEquiv g, Fintype.sum_prod_type]
  refine Finset.sum_congr rfl fun i _ => Finset.sum_congr rfl fun j _ => congrArg g (Fin.ext ?_)
  simp only [finProdFinEquiv_apply_val]
  omega

end Cert.LibBlockSum
-- ==== Proof.Spec.lean ====
/-
  The function both programs compute, entry by entry, over the extended reals:

      out[a, o] = ( sum over k < 4096 of  x[a, k] * (sign (w[o, k]) * alpha[o, 0]) ) + bias[o].

  Addition of extended reals is commutative and associative, so the sum over the 4096 contraction indices may be taken
  as 16 consecutive partial sums of 256 terms, with the bias added first instead of last. The one place where finiteness
  matters is the straight-through form of the binarised weight, (sign r - r) + r: it is sign r for a real r, and is not
  for an infinite one.
-/
import Idealize.ShloMosaic.PureOps.Ideal.Laws
import Idealize.ShloMosaic.Lib.ValueIdx
import proofs.«109419_j1056561955255_2_alg».proof.Proof.LibBlockSum

noncomputable section

namespace Cert.BinaryLinear

open Idealize.ShloMosaic Idealize.ShloMosaic.ValueIdx
open scoped BigOperators

abbrev SX : Shape := ⟨2, ![8192, 4096]⟩
abbrev SW : Shape := ⟨2, ![4096, 4096]⟩
abbrev SA : Shape := ⟨2, ![4096, 1]⟩
abbrev SB : Shape := ⟨1, ![4096]⟩

/-- The product at contraction index k for output row a and output column o. -/
def term (x : SX.Idx → EReal) (w : SW.Idx → EReal) (al : SA.Idx → EReal) (a : Fin 8192) (o : Fin 4096) (k : Fin 4096) : EReal :=
  x (ix2 a k) * (Ideal.sign (w (ix2 o k)) * al (ix2 o 0))

/-- One entry of the result. -/
def entry (x : SX.Idx → EReal) (w : SW.Idx → EReal) (al : SA.Idx → EReal) (b : SB.Idx → EReal) (a : Fin 8192) (o : Fin 4096) : EReal :=
  (∑ k : Fin 4096, term x w al a o k) + b (ix1 o)

/-- The whole result array. -/
def result (x : SX.Idx → EReal) (w : SW.Idx → EReal) (al : SA.Idx → EReal) (b : SB.Idx → EReal) : SX.Idx → EReal :=
  fun i => entry x w al b ⟨(i 0).val, idx2_lt0 i⟩ ⟨(i 1).val, idx2_lt1 i⟩

/-- A sum over 4096 indices is the sum of its 16 consecutive blocks of 256. -/
theorem sum_16_blocks {M : Type*} [AddCommMonoid M] (g : Fin 4096 → M) :
    ∑ s : Fin 16, ∑ l : Fin 256, g ⟨256 * s.val + l.val, by have := s.isLt; have := l.isLt; omega⟩ = ∑ k : Fin 4096, g k :=
  Cert.LibBlockSum.sum_blocks 16 256 g

/-- The bias first, then the 16 partial sums: the same entry. -/
theorem entry_accumulated (x : SX.Idx → EReal) (w : SW.Idx → EReal) (al : SA.Idx → EReal) (b : SB.Idx → EReal) (a : Fin 8192) (o : Fin 4096) :
    b (ix1 o) + ∑ s : Fin 16, ∑ l : Fin 256, term x w al a o ⟨256 * s.val + l.val, by have := s.isLt; have := l.isLt; omega⟩
      = entry x w al b a o := by
  unfold entry
  rw [sum_16_blocks (term x w al a o), add_comm]

/-- The straight-through binarised weight: for a real weight, (sign r - r) + r is sign r. -/
theorem sign_sub_add_cancel (r : ℝ) : (Ideal.sign (r : EReal) - (r : EReal)) + (r : EReal) = Ideal.sign (r : EReal) := by
  rw [Ideal.sign_coe, ← EReal.coe_sub, ← EReal.coe_add, sub_add_cancel]

end Cert.BinaryLinear

end
-- ==== Proof.Accumulated.lean ====
/-
  The kernel's result array, entry by entry.

  An output tile is seeded with the bias row at the first of its 16 grid points and gains one partial product at each
  of them, so after the run it holds, at entry (p, q) of tile (a / 2048, o / 1024),
      bias[o] + sum over s < 16 of sum over l < 256 of x[a, 256 s + l] * (sign (w[o, 256 s + l]) * alpha[o, 0]).
  The run of points of that tile starts at 16 * (4 * (a / 2048) + o / 1024); its s-th point reads the s-th contraction
  tile of x's row tile and of the weights' row tile. Regrouping the 16 blocks of 256 into one sum over 4096 gives the
  entry of the common function.
-/
import proofs.«109419_j1056561955255_2_alg».proof.Proof.Gen.KernelIdeal.Value
import proofs.«109419_j1056561955255_2_alg».proof.Proof.TileTerm
import proofs.«109419_j1056561955255_2_alg».proof.Proof.Tiles
import proofs.«109419_j1056561955255_2_alg».proof.Proof.Spec

noncomputable section

namespace Cert.KernelIdeal.Accumulated

open Cert.KernelIdeal Cert.KernelIdeal.Gen Idealize.ShloMosaic Idealize.ShloMosaic.TcCoe Idealize.SL.Sem
open Idealize.ShloMosaic.ValueIdx Cert.KernelIdeal.TileTerm Cert.KernelIdeal.Tiles Cert.BinaryLinear
open scoped BigOperators

variable (m : (ℓ : Loc nD τ sig) → Buf (Elt Ideal) ℓ)

/-- The partial product of an input tile with a signed, scaled weight tile, at entry y of the output tile. -/
def tileSum (x : FVec Ideal S2048x256 .f32) (w : FVec Ideal S1024x256 .f32) (al : FVec Ideal S1024x1 .f32)
    (y : S2048x1024.Idx) : EReal :=
  ∑ l : Fin 256, x (ix2 (y 0) l) * (Ideal.sign (w (ix2 (y 1) l)) * al (ix2 (y 1) 0))

/-- What grid point n adds to its output tile at entry y: the partial product over its 256 contraction indices
    (zero for a number past the grid, which is never read). -/
def addend (c : Dev nD) (n : ℕ) (y : S2048x1024.Idx) : EReal :=
  if h : n < cfg0.N then tileSum (iblk m c 0 ⟨n, h⟩) (iblk m c 1 ⟨n, h⟩) (iblk m c 2 ⟨n, h⟩) y else 0

/-- The first point of a run leaves the seed plus its own partial product. -/
theorem reset_eq (c : Dev nD) (b : ℕ) (hb : b < cfg0.N) (h : b < cfg0.N) (y : S2048x1024.Idx) :
    Value.reset4 m c b h y = k0_pay1 (F := Ideal) (iblk m c 3 ⟨b, hb⟩) y + addend m c b y := by
  obtain ⟨p, q, rfl⟩ : ∃ (p : Fin 2048) (q : Fin 1024), y = ix2 p q := ⟨y 0, y 1, eq_ix2 y⟩
  unfold Value.reset4 addend
  rw [dif_pos h]
  unfold tileSum
  exact step_apply _ _ _ _ p q

/-- Every later point adds its partial product to what the point before left. -/
theorem step_eq (c : Dev nD) (n : ℕ) (h : n < cfg0.N) (acc : S2048x1024.Idx → EReal) (y : S2048x1024.Idx) :
    Value.step4 m c n h acc y = acc y + addend m c n y := by
  obtain ⟨p, q, rfl⟩ : ∃ (p : Fin 2048) (q : Fin 1024), y = ix2 p q := ⟨y 0, y 1, eq_ix2 y⟩
  unfold Value.step4 addend
  rw [dif_pos h]
  unfold tileSum
  exact step_apply _ _ _ _ p q

/-- The fold of the run of output row a and output column o, at their place in the tile, is the common function's entry. -/
theorem fold_entry (c : Dev nD) (a : Fin 8192) (o : Fin 4096)
    (h : 16 * (4 * (a.val / 2048) + o.val / 1024) + 15 < cfg0.N) :
    Pipeline.accAt (Value.reset4 m c) (Value.step4 m c) (16 * (4 * (a.val / 2048) + o.val / 1024)) 15 h
        (ix2 (⟨a.val % 2048, Nat.mod_lt _ (by decide)⟩ : Fin 2048) (⟨o.val % 1024, Nat.mod_lt _ (by decide)⟩ : Fin 1024))
      = entry (m ((c : Thread nD τ).loc main_arg0)) (m ((c : Thread nD τ).loc main_arg1))
          (m ((c : Thread nD τ).loc main_arg2)) (m ((c : Thread nD τ).loc main_arg3)) a o := by
  have ha := a.isLt
  have ho := o.isLt
  have hN : cfg0.N = 256 := N_0
  generalize hb : 16 * (4 * (a.val / 2048) + o.val / 1024) = b at h
  have hbN : b < cfg0.N := by omega
  rw [Pipeline.accAt_add_apply (Value.reset4 m c) (Value.step4 m c)
    (fun y => k0_pay1 (F := Ideal) (iblk m c 3 ⟨b, hbN⟩) y) (addend m c) b 15
    (fun h' y => reset_eq m c b hbN h' y) (fun n h' acc y _ _ => step_eq m c n h' acc y) 15 le_rfl h _]
  rw [← entry_accumulated, Finset.sum_range]
  congr 1
  · rw [seed_apply]
    exact bias_tile m c ⟨b, hbN⟩ _ (ix1 o) (by show o.val = 1024 * (b / 16 % 4) + o.val % 1024; omega)
  · refine Finset.sum_congr rfl fun s _ => ?_
    have hs := s.isLt
    unfold addend
    rw [dif_pos (show b + s.val < cfg0.N by omega)]
    unfold tileSum
    refine Finset.sum_congr rfl fun l _ => ?_
    have hl := l.isLt
    unfold term
    refine congrArg₂ (· * ·) (x_tile m c ⟨b + s.val, by omega⟩ _ l _ ?_ ?_)
      (congrArg₂ (· * ·) (congrArg Ideal.sign (w_tile m c ⟨b + s.val, by omega⟩ _ l _ ?_ ?_))
        (scale_tile m c ⟨b + s.val, by omega⟩ _ _ ?_))
    · show a.val = 2048 * ((b + s.val) / 64) + a.val % 2048; omega
    · show 256 * s.val + l.val = 256 * ((b + s.val) % 16) + l.val; omega
    · show o.val = 1024 * ((b + s.val) / 16 % 4) + o.val % 1024; omega
    · show 256 * s.val + l.val = 256 * ((b + s.val) % 16) + l.val; omega
    · show o.val = 1024 * ((b + s.val) / 16 % 4) + o.val % 1024; omega

/-- After the run the kernel's output array is the common function of the argument arrays. -/
theorem G4_eq (c : Dev nD) :
    Value.G4 (F := Ideal) m c
      = result (m ((c : Thread nD τ).loc main_arg0)) (m ((c : Thread nD τ).loc main_arg1))
          (m ((c : Thread nD τ).loc main_arg2)) (m ((c : Thread nD τ).loc main_arg3)) := by
  refine funext fun (i : S8192x4096.Idx) => ?_
  have hi0 := idx2_lt0 i
  have hi1 := idx2_lt1 i
  have hN : cfg0.N = 256 := N_0
  have hr : Value.run4Of i = 4 * ((i 0).val / 2048) + (i 1).val / 1024 := by
    show 4 * ((i 0).val / 2048 - 0) + 1 * ((i 1).val / 1024 - 0) = _
    omega
  unfold Value.G4
  rw [dif_pos (by rw [hr, hN]; omega)]
  have e : ∀ (b : ℕ) (h : b + 15 < cfg0.N) (b' : ℕ) (h' : b' + 15 < cfg0.N), b = b' →
      Pipeline.accAt (Value.reset4 m c) (Value.step4 m c) b 15 h = Pipeline.accAt (Value.reset4 m c) (Value.step4 m c) b' 15 h' := by
    intro b h b' h' hb; subst hb; rfl
  rw [e _ _ (16 * (4 * ((i 0).val / 2048) + (i 1).val / 1024)) (by rw [hN]; omega) (by rw [hr])]
  have hl : Value.loc4Of i = ix2 (⟨(i 0).val % 2048, Nat.mod_lt _ (by decide)⟩ : Fin 2048) (⟨(i 1).val % 1024, Nat.mod_lt _ (by decide)⟩ : Fin 1024) :=
    funext fun a => match a with | ⟨0, _⟩ => rfl | ⟨1, _⟩ => rfl
  rw [hl]
  exact fold_entry m c ⟨(i 0).val, hi0⟩ ⟨(i 1).val, hi1⟩ _

end Cert.KernelIdeal.Accumulated

end
-- ==== Proof.RefEntry.lean ====
/-
  The reference's result array, entry by entry, is the common function, when every weight is real.

  Read at output row a and column o, the reference is
      ( sum over k < 4096 of x[a, k] * (((sign w[o, k] - w[o, k]) + w[o, k]) * alpha[o, 0]) ) + bias[o],
  the bias reaching the sum through two broadcasts that keep its entries. For a real weight the straight-through form
  (sign r - r) + r is sign r, which is the only difference from the common function.
-/
import proofs.«109419_j1056561955255_2_alg».proof.Proof.Gen.ReferenceIdeal.Read
import proofs.«109419_j1056561955255_2_alg».proof.Proof.Spec

noncomputable section

namespace Cert.ReferenceIdeal.RefEntry

open Cert.ReferenceIdeal Cert.ReferenceIdeal.Read Idealize.ShloMosaic Idealize.ShloMosaic.ValueIdx Cert.BinaryLinear
open scoped BigOperators

theorem ref_eq (x0 : (⟨S8192x4096, .f32⟩ : BufTy).Contents (Elt Ideal)) (x1 : (⟨S4096x4096, .f32⟩ : BufTy).Contents (Elt Ideal))
    (x2 : (⟨S4096x1, .f32⟩ : BufTy).Contents (Elt Ideal)) (x3 : (⟨S4096, .f32⟩ : BufTy).Contents (Elt Ideal))
    (hfin : ∀ k : S4096x4096.Idx, ∃ r : ℝ, x1 k = (r : EReal)) :
    val_main_v8 (F := Ideal) x0 x1 x2 x3 = result x0 x1 x2 x3 := by
  refine funext fun (i : S8192x4096.Idx) => ?_
  rw [val_main_v8_apply, val_main_v5_apply, val_main_v7_apply, val_main_v6_apply]
  unfold result entry
  have eb : idx_main_v6 (idx_main_v7 i) = ix1 (⟨(i 1).val, idx2_lt1 i⟩ : Fin 4096) :=
    funext fun a => match a with | ⟨0, _⟩ => rfl
  rw [eb]
  refine congrArg₂ (· + ·) (Finset.sum_congr rfl fun k _ => ?_) rfl
  rw [val_main_v4_apply, val_main_v3_apply, val_main_v2_apply, val_main_v1_apply, val_main_v0_apply]
  have el : lidx_main_v5 i k = ix2 (⟨(i 0).val, idx2_lt0 i⟩ : Fin 8192) k :=
    funext fun a => match a with | ⟨0, _⟩ => rfl | ⟨1, _⟩ => rfl
  have er : ridx_main_v5 i k = ix2 (⟨(i 1).val, idx2_lt1 i⟩ : Fin 4096) k :=
    funext fun a => match a with | ⟨0, _⟩ => rfl | ⟨1, _⟩ => rfl
  have ea : idx_main_v3 (ridx_main_v5 i k) = ix2 (⟨(i 1).val, idx2_lt1 i⟩ : Fin 4096) (0 : Fin 1) :=
    funext fun a => match a with | ⟨0, _⟩ => rfl | ⟨1, _⟩ => rfl
  rw [ea, el, er]
  unfold term
  obtain ⟨r, hr⟩ := hfin (ix2 (⟨(i 1).val, idx2_lt1 i⟩ : Fin 4096) k)
  rw [hr]
  show _ * (((Ideal.sign (r : EReal) - (r : EReal)) + (r : EReal)) * _) = _
  rw [sign_sub_add_cancel]

end Cert.ReferenceIdeal.RefEntry

end
-- ==== Proof.FiniteWeights.lean ====
/-
  What the precondition gives: every entry of the weight array is a real number.

  The precondition is the conjunction, over the four argument arrays, of "every entry's absolute value is below +infinity".
  Its second conjunct speaks of the weights; an extended real whose absolute value (the larger of it and its negation)
  is below +infinity is neither infinity, so it is a real.
-/
import proofs.«109419_j1056561955255_2_alg».proof.Pre_finite_inputs
import proofs.«109419_j1056561955255_2_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.FiniteWeights

open Idealize.ShloMosaic Idealize.ShloMosaic.ValueIdx Cert.Pre_finite_inputs

/-- The scalar shape has one index. -/
instance : Subsingleton S_.Idx := ⟨fun a b => funext fun d => d.elim0⟩

/-- Under the precondition every weight is real. -/
theorem weight_real (a0 : FVec Ideal S8192x4096 .f32) (a1 : FVec Ideal S4096x4096 .f32) (a2 : FVec Ideal S4096x1 .f32)
    (a3 : FVec Ideal S4096 .f32) (h : fn (F := Ideal) a0 a1 a2 a3 = fun _ => 1#1) (k : S4096x4096.Idx) :
    ∃ r : ℝ, a1 k = (r : EReal) := by
  have h0 := congrFun h ix0
  dsimp only [fn, fn_part1] at h0
  change IntOp.andi (IntOp.andi (IntOp.andi _ _) _) _ = 1#1 at h0
  obtain ⟨h01, -⟩ := IntOp.andi_eq_one.mp h0
  obtain ⟨h02, -⟩ := IntOp.andi_eq_one.mp h01
  obtain ⟨-, e1⟩ := IntOp.andi_eq_one.mp h02
  have hk := Host.reduce_andi_all _ _ _ _ ix0 e1 k
  have htop : Ideal.ofBits .f32 0x7F800000#32 = ⊤ := by simp [Ideal.ofBits, Ideal.ieee]
  change Ideal.cmp .olt (max (a1 k) (-(a1 k))) (Ideal.ofBits .f32 0x7F800000#32) = 1#1 at hk
  rw [htop] at hk
  have hlt : max (a1 k) (-(a1 k)) < ⊤ := by
    by_contra hn
    simp [Ideal.cmp, hn] at hk
  have hne_top : a1 k ≠ ⊤ := fun e => by rw [e] at hlt; simp at hlt
  have hne_bot : a1 k ≠ ⊥ := fun e => by rw [e] at hlt; simp at hlt
  exact ⟨(a1 k).toReal, (EReal.coe_toReal hne_top hne_bot).symm⟩

end Cert.Pre_finite_inputs.FiniteWeights

end
-- ==== Proof.lean ====
/-
  A binarised linear layer: out = x · (sign(W) ⊙ alpha)ᵀ + bias, with x of 8192 rows and 4096 columns, W of 4096 rows and
  4096 columns, alpha one scale per row of W, bias one entry per output column.

  The kernel tiles the output into 4 by 4 tiles of 2048 rows and 1024 columns and the contraction into 16 tiles of 256.
  Each output tile is seeded with the bias row at its first contraction tile and gains, at every contraction tile, the
  product of the input tile with the signed, scaled weight tile. The reference forms the whole signed weight array in
  its straight-through spelling (sign W - W) + W, scales its rows, contracts all 4096 indices at once and adds the bias
  last.

  Over the extended reals both are, at output row a and column o,
      ( sum over k < 4096 of x[a, k] * (sign (W[o, k]) * alpha[o, 0]) ) + bias[o]:
  the kernel because addition is commutative and associative (16 blocks of 256 are one sum of 4096, bias first or last),
  the reference because (sign r - r) + r = sign r for a real r, and the precondition makes every weight real. The
  kernel's spelling of the sign (where |w| > 0 take -1 or 1 by the comparison w < 0, elsewhere w) is the sign function at
  every extended real; the comparison form of "1.0 carrying w's sign bit" is the one rewrite of the idealisation, and its
  statement is the fourth conjunct. Changes of float format are the identity here.

  The three runs are the generated ones: each program terminates without fault and leaves its arguments unchanged.
-/
import proofs.«109419_j1056561955255_2_alg».proof.Defs
import proofs.«109419_j1056561955255_2_alg».proof.Proof.Gen.Kernel
import proofs.«109419_j1056561955255_2_alg».proof.Proof.Gen.Kernel.Skeleton
import proofs.«109419_j1056561955255_2_alg».proof.Proof.Gen.Kernel.Launch
import proofs.«109419_j1056561955255_2_alg».proof.Proof.Gen.Kernel.Points
import proofs.«109419_j1056561955255_2_alg».proof.Proof.Gen.Kernel.Frame
import proofs.«109419_j1056561955255_2_alg».proof.Proof.Gen.KernelIdeal
import proofs.«109419_j1056561955255_2_alg».proof.Proof.Gen.KernelIdeal.Skeleton
import proofs.«109419_j1056561955255_2_alg».proof.Proof.Gen.KernelIdeal.Launch
import proofs.«109419_j1056561955255_2_alg».proof.Proof.Gen.KernelIdeal.Points
import proofs.«109419_j1056561955255_2_alg».proof.Proof.Gen.KernelIdeal.Frame
import proofs.«109419_j1056561955255_2_alg».proof.Proof.Gen.ReferenceIdeal
import proofs.«109419_j1056561955255_2_alg».proof.Proof.Gen.Pre_finite_inputs
import proofs.«109419_j1056561955255_2_alg».proof.Proof.Gen.KernelIdeal.Value
import proofs.«109419_j1056561955255_2_alg».proof.Proof.Gen.ReferenceIdeal.Run
import proofs.«109419_j1056561955255_2_alg».proof.Proof.Gen.ReferenceIdeal.Read
import proofs.«109419_j1056561955255_2_alg».proof.Proof.Accumulated
import proofs.«109419_j1056561955255_2_alg».proof.Proof.RefEntry
import proofs.«109419_j1056561955255_2_alg».proof.Proof.FiniteWeights
import Idealize.ShloMosaic.Adequacy
import Idealize.ShloMosaic.Init

noncomputable section

namespace Cert.Proof

open Idealize.ShloMosaic Idealize.SL.Sem Idealize.ShloMosaic.TcCoe

/-- The kernel as printed runs and keeps its arguments. -/
theorem frame_kernel : Cert.frame_Kernel := fun m ρ _ => Cert.Kernel.Gen.frame m ρ

/-- So does its idealisation. -/
theorem frame_kernel_ideal : Cert.frame_KernelIdeal := fun m ρ _ => Cert.KernelIdeal.Gen.frame m ρ

/-- The reference's run, with its result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealisation's one rewrite: 1.0 carrying w's sign bit, read as -1 where w < 0 and 1 elsewhere. -/
theorem preserves : Cert.preserves_Kernel_KernelIdeal :=
  IdealRules.sign_bit.statement Cert.KernelIdeal.S1024x256 .f32

/-- Both idealised programs end with the common function of arguments that agree. -/
theorem algebraic : Cert.algebraic_KernelIdeal_ReferenceIdeal := by
  intro m ρ m' ρ' hpre hagree
  refine ⟨fun c => Cert.KernelIdeal.Value.G4 (F := Ideal) m c, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  have hfin : ∀ k, ∃ r : ℝ, m ((c.tc : Thread Cert.KernelIdeal.nD Cert.KernelIdeal.τ).loc Cert.KernelIdeal.main_arg1) k = (r : EReal) :=
    fun k => Cert.Pre_finite_inputs.FiniteWeights.weight_real _ _ _ _ (hpre c) k
  exact (Cert.ReferenceIdeal.RefEntry.ref_eq _ _ _ _ hfin).trans (Cert.KernelIdeal.Accumulated.G4_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
